-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S64x8 1) : IVec S_ 1 :=
  let main_c_5 : IVec S_ 1 := constantI S_ 1 1#1
  let main_v17 : IVec S_ 1 := (fun x v => Host.reduce IntOp.andi x v reducesTo_S64x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x64 .f32) (main_arg3 : FVec F S64 .f32) (main_arg4 : FVec F S64x8 .f32) (main_arg5 : FVec F S8 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x8 .f32 := Host.absf main_arg4
  let main_cst_4 : FVec F S_ .f32 := constant S_ .f32 0x7F800000#32
  let main_v15 : FVec F S64x8 .f32 := broadcastInDim S64x8 ![] bcast_S_S64x8 main_cst_4
  let main_v16 : IVec S64x8 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x8 : Shape := ⟨2, ![64, 8]⟩
abbrev S8 : Shape := ⟨1, ![8]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S4000x512 : Shape := ⟨2, ![4000, 512]⟩
abbrev S4000x64 : Shape := ⟨2, ![4000, 64]⟩
abbrev S3300000x64 : Shape := ⟨2, ![3300000, 64]⟩
abbrev S1x64 : Shape := ⟨2, ![1, 64]⟩
abbrev S100000x8 : Shape := ⟨2, ![100000, 8]⟩
abbrev S20000x64 : Shape := ⟨2, ![20000, 64]⟩
abbrev S20000x8 : Shape := ⟨2, ![20000, 8]⟩
abbrev S3300000x8 : Shape := ⟨2, ![3300000, 8]⟩
abbrev S1x8 : Shape := ⟨2, ![1, 8]⟩

abbrev nBuf : Space → Nat
  | .hbm => 89
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S64x8, .f32⟩
  | .hbm, ⟨5, _⟩ => ⟨S8, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x8, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x8, .f32⟩
  | .hbm, ⟨79, _⟩ => ⟨S3300000x1, .f32⟩
  | .hbm, ⟨80, _⟩ => ⟨S3300000x8, .f32⟩
  | .hbm, ⟨81, _⟩ => ⟨S3300000x8, .f32⟩
  | .hbm, ⟨82, _⟩ => ⟨S_, .f32⟩
  | .hbm, ⟨83, _⟩ => ⟨S100000x8, .f32⟩
  | .hbm, ⟨84, _⟩ => ⟨S3300000x1, .i32⟩
  | .hbm, ⟨85, _⟩ => ⟨S100000x8, .f32⟩
  | .hbm, ⟨86, _⟩ => ⟨S1x8, .f32⟩
  | .hbm, ⟨87, _⟩ => ⟨S100000x8, .f32⟩
  | .hbm, ⟨88, _⟩ => ⟨S100000x8, .f32⟩
  | .local _ .vmem, ⟨0, _⟩ => ⟨S4000x512, .f32⟩
  | .local _ .vmem, ⟨1, _⟩ => ⟨S4000x512, .f32⟩
  | .local _ .vmem, ⟨2, _⟩ => ⟨S512x64, .f32⟩
  | .local _ .vmem, ⟨3, _⟩ => ⟨S4000x64, .f32⟩
  | .local _ .vmem, ⟨4, _⟩ => ⟨S4000x64, .f32⟩
  | .local _ .vmem, ⟨5, _⟩ => ⟨S20000x64, .f32⟩
  | .local _ .vmem, ⟨6, _⟩ => ⟨S20000x64, .f32⟩
  | .local _ .vmem, ⟨7, _⟩ => ⟨S64x8, .f32⟩
  | .local _ .vmem, ⟨8, _⟩ => ⟨S20000x8, .f32⟩
  | .local _ .vmem, ⟨9, _⟩ => ⟨S20000x8, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S4000x64_S4000x64_0_0 : ∀ a, (![0, 0] : Fin 2 → Nat) a + S4000x64.size a ≤ S4000x64.size a
  h_S4000x64 : 0 < S4000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  inb_S64x8_S64x8_0_0 : ∀ a, (![0, 0] : Fin 2 → Nat) a + S64x8.size a ≤ S64x8.size a
  h_S64x8 : 0 < S64x8.numel
  inb_S20000x8_S20000x8_0_0 : ∀ a, (![0, 0] : Fin 2 → Nat) a + S20000x8.size a ≤ S20000x8.size a
  h_S20000x8 : 0 < S20000x8.numel
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x512_S512x64_S4000x64_1_0_0_1_n_n_wf : DotDims.WF S4000x512 S512x64 S4000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S20000x64_S64x8_S20000x8_1_0_0_1_n_n_wf : DotDims.WF S20000x64 S64x8 S20000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S100000x64.size a
  hwx1_0 : ∀ i : grid1.Coords, EltTy.bits .f32 = 32 ∨ (Rect.block (s := S100000x64) S20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x8.size a ≤ S64x8.size a
  hwx1_1 : ∀ i : grid1.Coords, EltTy.bits .f32 = 32 ∨ (Rect.block (s := S64x8) S64x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x8.size a ≤ S100000x8.size a
  hwx1_2 : ∀ i : grid1.Coords, EltTy.bits .f32 = 32 ∨ (Rect.block (s := S100000x8) S20000x8.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x512_S512x64_S4000x64_1_0_0_1_n_n : DotDims S4000x512 S512x64 S4000x64 where
  lhsContracting := [1]
  rhsContracting := [0]
  lhsNonContracting := [0]
  rhsNonContracting := [1]
  lhsBatch := []
  rhsBatch := []
  wf := dot_S4000x512_S512x64_S4000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S20000x64_S64x8_S20000x8_1_0_0_1_n_n : DotDims S20000x64 S64x8 S20000x8 where
  lhsContracting := [1]
  rhsContracting := [0]
  lhsNonContracting := [0]
  rhsNonContracting := [1]
  lhsBatch := []
  rhsBatch := []
  wf := dot_S20000x64_S64x8_S20000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S20000x8.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x8 : Shape := ⟨2, ![64, 8]⟩
abbrev S8 : Shape := ⟨1, ![8]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x64 : Shape := ⟨2, ![100000, 64]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x8 : Shape := ⟨2, ![100000, 8]⟩
abbrev S3300000x8 : Shape := ⟨2, ![3300000, 8]⟩
abbrev S1x8 : Shape := ⟨2, ![1, 8]⟩

abbrev nBuf : Space → Nat
  | .hbm => 122
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S64x8, .f32⟩
  | .hbm, ⟨5, _⟩ => ⟨S8, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S100000x64, .f32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x8, .f32⟩
  | .hbm, ⟨70, _⟩ => ⟨S_, .f32⟩
  | .hbm, ⟨71, _⟩ => ⟨S3300000, .f32⟩
  | .hbm, ⟨72, _⟩ => ⟨S_, .f32⟩
  | .hbm, ⟨73, _⟩ => ⟨S100000, .f32⟩
  | .hbm, ⟨74, _⟩ => ⟨S3300000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S3300000, .i32⟩
  | .hbm, ⟨86, _⟩ => ⟨S3300000, .i1⟩
  | .hbm, ⟨87, _⟩ => ⟨S_, .i32⟩
  | .hbm, ⟨88, _⟩ => ⟨S3300000, .i32⟩
  | .hbm, ⟨89, _⟩ => ⟨S3300000, .i32⟩
  | .hbm, ⟨90, _⟩ => ⟨S3300000, .i32⟩
  | .hbm, ⟨91, _⟩ => ⟨S3300000x1, .i32⟩
  | .hbm, ⟨92, _⟩ => ⟨S3300000, .f32⟩
  | .hbm, ⟨93, _⟩ => ⟨S_, .i32⟩
  | .hbm, ⟨94, _⟩ => ⟨S3300000, .i32⟩
  | .hbm, ⟨95, _⟩ => ⟨S3300000, .i1⟩
  | .hbm, ⟨96, _⟩ => ⟨S_, .i32⟩
  | .hbm, ⟨97, _⟩ => ⟨S3300000, .i32⟩
  | .hbm, ⟨98, _⟩ => ⟨S3300000, .i32⟩
  | .hbm, ⟨99, _⟩ => ⟨S3300000, .i32⟩
  | .hbm, ⟨100, _⟩ => ⟨S3300000x1, .i32⟩
  | .hbm, ⟨101, _⟩ => ⟨S3300000, .f32⟩
  | .hbm, ⟨102, _⟩ => ⟨S3300000, .f32⟩
  | .hbm, ⟨103, _⟩ => ⟨S_, .i32⟩
  | .hbm, ⟨104, _⟩ => ⟨S3300000, .i32⟩
  | .hbm, ⟨105, _⟩ => ⟨S3300000, .i1⟩
  | .hbm, ⟨106, _⟩ => ⟨S_, .i32⟩
  | .hbm, ⟨107, _⟩ => ⟨S3300000, .i32⟩
  | .hbm, ⟨108, _⟩ => ⟨S3300000, .i32⟩
  | .hbm, ⟨109, _⟩ => ⟨S3300000, .i32⟩
  | .hbm, ⟨110, _⟩ => ⟨S3300000x1, .i32⟩
  | .hbm, ⟨111, _⟩ => ⟨S3300000x8, .f32⟩
  | .hbm, ⟨112, _⟩ => ⟨S3300000x1, .f32⟩
  | .hbm, ⟨113, _⟩ => ⟨S3300000x8, .f32⟩
  | .hbm, ⟨114, _⟩ => ⟨S3300000x8, .f32⟩
  | .hbm, ⟨115, _⟩ => ⟨S_, .f32⟩
  | .hbm, ⟨116, _⟩ => ⟨S100000x8, .f32⟩
  | .hbm, ⟨117, _⟩ => ⟨S3300000x1, .i32⟩
  | .hbm, ⟨118, _⟩ => ⟨S100000x8, .f32⟩
  | .hbm, ⟨119, _⟩ => ⟨S1x8, .f32⟩
  | .hbm, ⟨120, _⟩ => ⟨S100000x8, .f32⟩
  | .hbm, ⟨121, _⟩ => ⟨S100000x8, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  dot_S100000x512_S512x64_S100000x64_1_0_0_1_n_n_wf : DotDims.WF S100000x512 S512x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x8_S100000x8_1_0_0_1_n_n_wf : DotDims.WF S100000x64 S64x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x8_S100000x8_1_0_0_1_n_n : DotDims S100000x64 S64x8 S100000x8 where
  lhsContracting := [1]
  rhsContracting := [0]
  lhsNonContracting := [0]
  rhsNonContracting := [1]
  lhsBatch := []
  rhsBatch := []
  wf := dot_S100000x64_S64x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

class Facts : Prop extends Facts₀ where

variable [Facts]
-- ==== Proof.KernelRun.lean ====
/-
  The idealized kernel's whole run with its result named. The program is eight segments: host operations, the first
  matrix-product region, host operations, the second region, host operations. Every weakly fair execution ends, nothing
  faulting, with the result buffer at what the last segment's fold leaves there (the contents W8 at the result) and every
  argument as launched. The fold's contents at each segment boundary, the regions as segments and the launch are the
  generated frame's; the only new reading is the result buffer, held like every other unscoped buffer at the last boundary.
-/
import proofs.«109521_j39427799777294_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result at the last boundary's contents and the arguments as launched. -/
theorem run : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Run

end
-- ==== Proof.GraphKernel.lean ====
/-
  The host side of a two-layer graph convolution, as functions of the arrays it reads.
  An edge list with both endpoints in [0, 100000) is extended by one self loop per node. The degree of a node
  is the number of extended edges that end in it, its inverse root is 1/sqrt(degree) where the degree is positive
  and 0 elsewhere, and an extended edge's weight is the product of the inverse roots of its two endpoints.
  One layer maps node features h (one row per node) to, at node v, the sum over the extended edges e ending in v of
  weight(e) · h[source(e)], plus a bias row. The first layer is followed by max(·, 0).
  These are the printed operations of the kernel's host program, grouped; nothing here opens them.
-/
import proofs.«109521_j39427799777294_2_alg».proof.KernelIdeal

noncomputable section

namespace Cert.KernelIdeal.Graph

open Idealize.ShloMosaic Cert.KernelIdeal Cert.KernelIdeal.Facts₀ Cert.KernelIdeal.Facts

variable {F : FTy → Type} [FloatOps F] [Facts]

/-- A 3200000-vector followed by a 100000-vector. -/
def appendLoops (a : IVec S3200000 32) (b : IVec S100000 32) : IVec S3300000 32 :=
  concatenate S3300000 0 [⟨S3200000, a⟩, ⟨S100000, b⟩] concatenates_S3200000_S100000_S3300000_d0

/-- The source endpoints (row 0 of the edge list) followed by 0, 1, …, 99999: the self loops' sources. -/
def src (ei : IVec S2x3200000 32) : IVec S3300000 32 :=
  appendLoops (shapeCast _ (extractStridedSlice S1x3200000 ![0, 0] ei slices_S2x3200000_S1x3200000_0_0) shapeCasts_S1x3200000_S3200000) (iotaInDim S100000 32 0)

/-- The target endpoints (row 1 of the edge list) followed by 0, 1, …, 99999: the self loops' targets. -/
def dst (ei : IVec S2x3200000 32) : IVec S3300000 32 :=
  appendLoops (shapeCast _ (extractStridedSlice S1x3200000 ![1, 0] ei slices_S2x3200000_S1x3200000_1_0) shapeCasts_S1x3200000_S3200000) (iotaInDim S100000 32 0)

/-- Node numbers as a column of start indices, a negative number counted from the end (v < 0 ↦ v + 100000). -/
def startCol (v : IVec S3300000 32) : IVec S3300000x1 32 :=
  broadcastInDim S3300000x1 ![0] bcast_S3300000_S3300000x1_0 (select (cmpi .slt v (broadcastInDim S3300000 ![] bcast_S_S3300000 (constantI S_ 32 0#32))) (addi v (broadcastInDim S3300000 ![] bcast_S_S3300000 (constantI S_ 32 100000#32))) v)

/-- The degree from the targets d: at each node the sum of 1 over the extended edges ending there. -/
def degOf (d : IVec S3300000 32) : FVec F S100000 .f32 :=
  Host.scatterAdd scatter_S100000_S3300000x1_S3300000_n_0_0_1 (broadcastInDim S100000 ![] bcast_S_S100000 (constant S_ .f32 0x00000000#32)) (broadcastInDim S3300000x1 ![0] bcast_S3300000_S3300000x1_0 d) (broadcastInDim S3300000 ![] bcast_S_S3300000 (constant S_ .f32 0x3F800000#32))

/-- 1/sqrt(degree) where the degree is positive, 0 elsewhere. -/
def invRootOf (d : IVec S3300000 32) : FVec F S100000 .f32 :=
  select (cmpf .ogt (degOf (F := F) d) (broadcastInDim S100000 ![] bcast_S_S100000 (constant S_ .f32 0x00000000#32))) (Host.rsqrt (degOf (F := F) d)) (broadcastInDim S100000 ![] bcast_S_S100000 (id (constant S_ .f32 0x00000000#32)))

/-- An extended edge's weight from the sources s and targets d: the inverse root at its source times the one at its target. -/
def weightOf (s d : IVec S3300000 32) : FVec F S3300000 .f32 :=
  mulf (Host.gather gather_S100000_S3300000x1_S3300000_n_0_n_n_0_1_1 (invRootOf (F := F) d) (startCol s)) (Host.gather gather_S100000_S3300000x1_S3300000_n_0_n_n_0_1_1 (invRootOf (F := F) d) (startCol d))

/-- The weights of an edge list's extended edges. -/
def weight (ei : IVec S2x3200000 32) : FVec F S3300000 .f32 := weightOf (F := F) (src ei) (dst ei)

/-- Aggregation on 64 features from sources s, targets d and weights w: at node v the sum over edges e with d(e) = v of
    w(e) · h[s(e)], plus the bias row b. -/
def agg64 (h : FVec F S100000x64 .f32) (s d : IVec S3300000 32) (w : FVec F S3300000 .f32) (b : FVec F S64 .f32) : FVec F S100000x64 .f32 :=
  addf (Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 d) (mulf (Host.gather gather_S100000x64_S3300000x1_S3300000x64_1_0_n_n_0_1_164 h (startCol s)) (broadcastInDim S3300000x64 ![0, 1] bcast_S3300000x1_S3300000x64_0_1 (broadcastInDim S3300000x1 ![0] bcast_S3300000_S3300000x1_0 w)))) (broadcastInDim S100000x64 ![0, 1] bcast_S1x64_S100000x64_0_1 (broadcastInDim S1x64 ![1] bcast_S64_S1x64_1 b))

/-- max(·, 0) on 64 features. -/
def relu64 (a : FVec F S100000x64 .f32) : FVec F S100000x64 .f32 :=
  maximumf a (broadcastInDim S100000x64 ![] bcast_S_S100000x64 (constant S_ .f32 0x00000000#32))

/-- Aggregation on 8 features. -/
def agg8 (h : FVec F S100000x8 .f32) (s d : IVec S3300000 32) (w : FVec F S3300000 .f32) (b : FVec F S8 .f32) : FVec F S100000x8 .f32 :=
  addf (Host.scatterAdd scatter_S100000x8_S3300000x1_S3300000x8_1_0_0_1 (broadcastInDim S100000x8 ![] bcast_S_S100000x8 (constant S_ .f32 0x00000000#32)) (broadcastInDim S3300000x1 ![0] bcast_S3300000_S3300000x1_0 d) (mulf (Host.gather gather_S100000x8_S3300000x1_S3300000x8_1_0_n_n_0_1_18 h (startCol s)) (broadcastInDim S3300000x8 ![0, 1] bcast_S3300000x1_S3300000x8_0_1 (broadcastInDim S3300000x1 ![0] bcast_S3300000_S3300000x1_0 w)))) (broadcastInDim S100000x8 ![0, 1] bcast_S1x8_S100000x8_0_1 (broadcastInDim S1x8 ![1] bcast_S8_S1x8_1 b))

/-- The first layer on an edge list: aggregation, then max(·, 0). -/
def layer64 (h : FVec F S100000x64 .f32) (ei : IVec S2x3200000 32) (b : FVec F S64 .f32) : FVec F S100000x64 .f32 :=
  relu64 (agg64 h (src ei) (dst ei) (weight (F := F) ei) b)

/-- The second layer on an edge list. -/
def layer8 (h : FVec F S100000x8 .f32) (ei : IVec S2x3200000 32) (b : FVec F S8 .f32) : FVec F S100000x8 .f32 :=
  agg8 h (src ei) (dst ei) (weight (F := F) ei) b

end Cert.KernelIdeal.Graph

end
-- ==== Proof.LibDotPlain.lean ====
/-
  The dimension numbers of a plain matrix product — the left operand contracted on its last axis, the right on its
  first, no batch axes — read at an index. At result position (i, q) and contraction position k the left operand is
  read at (i, k) and the right at (k, q); the contraction shape has one axis of the shared extent, so the sum over it
  is the ordinary sum over k of l(i, k) · r(k, q). Both a tiled matrix unit product into a zero accumulator and a host
  dot product then read, at the ideal instance, as that sum, whatever the extents.
-/
import Idealize.ShloMosaic.PureOps.Ideal.Laws
import Idealize.ShloMosaic.Lib.ValueIdx

noncomputable section

open scoped BigOperators

namespace Idealize.ShloMosaic.DotPlain

open Idealize.ShloMosaic Idealize.ShloMosaic.ValueIdx

variable {M K N : Nat} (d : DotDims ⟨2, ![M, K]⟩ ⟨2, ![K, N]⟩ ⟨2, ![M, N]⟩)

/-- The dimension numbers are those of a plain product: [1] × [0] contracted, [0] and [1] kept, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

theorem rank_one (h : IsPlain d) : d.contr.rank = 1 := by rw [d.rank_contr, h.lc]; rfl

theorem size_zero (h : IsPlain d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsPlain d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsPlain d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsPlain d) (j : (⟨2, ![M, N]⟩ : Shape).Idx) (k : d.contr.Idx) :
    (d.lhsIdx j k 1).val = (pos h k).val := by
  rw [d.lhsIdx_val_of_single h.lc j k]; rfl

theorem rhsIdx_row (h : IsPlain d) (j : (⟨2, ![M, N]⟩ : Shape).Idx) (k : d.contr.Idx) :
    (d.rhsIdx j k 0).val = (pos h k).val := by
  rw [d.rhsIdx_val_of_single h.rc j k]; rfl

theorem rhsIdx_col (h : IsPlain d) (j : (⟨2, ![M, N]⟩ : Shape).Idx) (k : d.contr.Idx) :
    (d.rhsIdx j k 1).val = (j 1).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem lhsIdx_eq (h : IsPlain d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsPlain d) (j : (⟨2, ![M, N]⟩ : Shape).Idx) (k : d.contr.Idx) :
    d.rhsIdx j k = ix2 (pos h k) (j 1) := by
  funext a; apply Fin.ext
  match a with
  | ⟨0, _⟩ => exact rhsIdx_row h j k
  | ⟨1, _⟩ => exact rhsIdx_col h j k

/-- THE CONTRACTION SUM of a plain product is the sum over k below the shared extent of l(i, k) · r(k, q). -/
theorem sum_eq (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (pos h) (fun k : Fin K => l (ix2 (j 0) k) * r (ix2 k (j 1)))]
  exact Finset.sum_congr rfl fun k _ => by rw [lhsIdx_eq h j k, rhsIdx_eq h j k]; rfl

/-- A matrix unit product into a zero accumulator, at the ideal instance and at an index. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = ∑ k : Fin K, l (ix2 (j 0) k) * r (ix2 k (j 1)) :=
  (Ideal.matmul_constant_zero_apply d prec l r j).trans (sum_eq h l r j)

/-- A host dot product, at the ideal instance and at an index. -/
theorem dotGeneral_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    Host.dotGeneral d prec l r j = ∑ k : Fin K, l (ix2 (j 0) k) * r (ix2 k (j 1)) := by
  unfold Host.dotGeneral
  exact (Ideal.dotGeneral_apply d prec _ l r j).trans (sum_eq h l r j)

end Idealize.ShloMosaic.DotPlain

end
-- ==== Proof.LibMatProd.lean ====
/-
  The product of an M×K and a K×N array of extended reals as ONE function of the two arrays: entry (i, q) is the sum over
  k of l(i, k) · r(k, q). A host dot product with plain matrix-product dimension numbers, and a matrix-unit product into
  a zero accumulator, are that function at the ideal instance; and an entry of the product depends only on row i of the
  left operand and column q of the right one, so the product of a block of rows with the right operand is that block of
  rows of the whole product.
-/
import proofs.«109521_j39427799777294_2_alg».proof.Proof.LibDotPlain

noncomputable section

open scoped BigOperators

namespace Idealize.ShloMosaic.MatProd

open Idealize.ShloMosaic Idealize.ShloMosaic.ValueIdx Idealize.ShloMosaic.DotPlain

/-- Entry (i, q) of the product: the sum over k of l(i, k) · r(k, q). -/
def matProd {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

variable {M K N : Nat} {d : DotDims ⟨2, ![M, K]⟩ ⟨2, ![K, N]⟩ ⟨2, ![M, N]⟩}

/-- A host dot product with plain dimension numbers is the product. -/
theorem dotGeneral_eq (h : IsPlain d) (prec : Option ContractPrecision) {φ₁ φ₂ : FTy}
    (l : FVec Ideal ⟨2, ![M, K]⟩ φ₁) (r : FVec Ideal ⟨2, ![K, N]⟩ φ₂) :
    Host.dotGeneral d prec l r = matProd l r :=
  funext fun j => DotPlain.dotGeneral_apply h prec l r j

/-- A matrix-unit product into a zero accumulator is the product, at an entry. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = matProd l r j :=
  DotPlain.matmul_zero_apply h prec l r j

/-- An entry of a product of a block of rows (and a copy of the right operand) is the entry of the whole product whose
    row the block's row is: the sums agree term by term. -/
theorem matProd_of_rows {B : Nat} (lb : (⟨2, ![B, K]⟩ : Shape).Idx → EReal) (rb : (⟨2, ![K, N]⟩ : Shape).Idx → EReal)
    (l : (⟨2, ![M, K]⟩ : Shape).Idx → EReal) (r : (⟨2, ![K, N]⟩ : Shape).Idx → EReal)
    (p : Fin B) (q : Fin N) (i : Fin M)
    (hl : ∀ k : Fin K, lb (ix2 p k) = l (ix2 i k)) (hr : ∀ k : Fin K, rb (ix2 k q) = r (ix2 k q)) :
    matProd lb rb (ix2 p q) = matProd l r (ix2 i q) :=
  Finset.sum_congr rfl fun k _ => by
    show lb (ix2 p k) * rb (ix2 k q) = l (ix2 i k) * r (ix2 k q)
    rw [hl k, hr k]

end Idealize.ShloMosaic.MatProd

end
-- ==== Proof.Region0.lean ====
/-
  What the first matrix-product region leaves in its output array, at the ideal instance, from ANY contents V at its entry.
  The grid has 25 points; point t stages rows [4000·t, 4000·(t+1)) of the left operand (all 512 columns) and the whole
  512×64 right operand, and the body stores their product — the operands' change of float format is the identity on the
  extended reals and the accumulator is zero — as rows [4000·t, 4000·(t+1)) of the output. An entry of a product depends only
  on its own row of the left operand, so block t written back is block t of the product of the two whole arrays; the 25 blocks
  tile the 100000 rows, so the output array ends as that product.
-/
import proofs.«109521_j39427799777294_2_alg».proof.Proof.Gen.KernelIdeal.Frame
import proofs.«109521_j39427799777294_2_alg».proof.Proof.LibMatProd
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.ShloMosaic.MatProd Idealize.SL.Sem
open Idealize.ShloMosaic.Pipeline (Dat Cfg Window)

theorem zeros : (![0, 0] : Fin 2 → Nat) = fun _ => 0 := funext fun a => by fin_cases a <;> rfl

/-- The body's dimension numbers are a plain matrix product's. -/
theorem plain : DotPlain.IsPlain (M := 4000) (K := 512) (N := 64) dot_S4000x512_S512x64_S4000x64_1_0_0_1_n_n := ⟨rfl, rfl, rfl, rfl, rfl, rfl⟩

/-- The stored value at an entry: the matrix-unit product of the two staged blocks into a zero accumulator, their rounding to bf16 the identity at the ideal instance. -/
theorem stored_apply (x0 : Vec Ideal S4000x512 .f32) (x1 : Vec Ideal S512x64 .f32) (y : S4000x64.Idx) :
    k0_pay1 x0 x1 y = matProd (M := 4000) (K := 512) (N := 64) x0 x1 y := by
  unfold k0_pay1
  exact MatProd.matmul_zero_apply plain none _ _ y

/-- An entry of the stored block is the entry of the whole product, when the staged rows are the whole array's rows. -/
theorem stored_entry (x0 : Vec Ideal S4000x512 .f32) (x1 : Vec Ideal S512x64 .f32) (A : S100000x512.Idx → EReal) (W : S512x64.Idx → EReal)
    (y : S4000x64.Idx) (i : S100000x64.Idx)
    (h0 : ∀ k : Fin 512, x0 (ix2 (y 0) k) = A (ix2 (i 0) k)) (h1 : ∀ k : Fin 512, x1 (ix2 k (y 1)) = W (ix2 k (i 1))) :
    k0_pay1 x0 x1 y = matProd (M := 100000) (K := 512) (N := 64) A W i :=
  (stored_apply x0 x1 y).trans (Finset.sum_congr rfl fun k _ => by
    show x0 (ix2 (y 0) k) * x1 (ix2 k (y 1)) = A (ix2 (i 0) k) * W (ix2 k (i 1))
    rw [h0 k, h1 k])

/-- The printed index maps over the grid: the left operand's and the output's row block is the point's number, every
    other block index is 0, and there are 25 points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 25 :=
  (by decide +kernel : ∀ t : Fin grid0.N, _)

/-- Every block number below 25 is some point's. -/
theorem point_of : ∀ q : Fin 25, ∃ t : Fin cfg0.N, t.val = q.val :=
  (by decide +kernel : ∀ q : Fin 25, ∃ t : Fin grid0.N, t.val = q.val)

variable (V : (c : Dev nD) → (b : Ref sig .tc) → Buf (Elt Ideal) ((c : Thread nD τ).loc b))

/-- WHAT POINT t WRITES BACK is block t of the product of the two arrays as the region finds them. -/
theorem flushed_eq (c : Dev nD) (t : Fin cfg0.N) :
    (dat0 (F := Ideal) V c).flushed 2 t
      = ((cfg0.win 2).blk t).view.read (Elt Ideal) (matProd (M := 100000) (K := 512) (N := 64) (V c main_arg0) (V c main_arg2)) := by
  show (cfg0.win 2).cut (grid0.coords t) ((dat0 V c).after 2 t) = _
  rw [after0_2]
  unfold out0_2
  rw [View.canon_unit_zero zeros]
  simp only [View.ld_unit_zero (S := S4000x512) zeros, View.ld_unit_zero (S := S512x64) zeros]
  obtain ⟨e0, e1, e2, e3, e4, e5, -⟩ := idx_facts t
  funext y
  show k0_pay1 (iblk0 V c 0 t) (iblk0 V c 1 t) y
    = matProd (M := 100000) (K := 512) (N := 64) (V c main_arg0) (V c main_arg2) (((cfg0.win 2).blk t).view.emb y)
  refine stored_entry (iblk0 V c 0 t) (iblk0 V c 1 t) (V c main_arg0) (V c main_arg2) y (((cfg0.win 2).blk t).view.emb y) (fun k => ?_) (fun k => ?_)
  · show V c main_arg0 (((cfg0.win 0).blk t).view.emb (ix2 (y 0) k)) = V c main_arg0 (ix2 ((((cfg0.win 2).blk t).view.emb y) 0) k)
    refine congrArg (V c main_arg0) ?_
    funext a; apply Fin.ext
    match a with
    | ⟨0, _⟩ => show win0_0.index t (0 : Fin 2) * 4000 + 1 * (y 0).val = win0_2.index t (0 : Fin 2) * 4000 + 1 * (y 0).val; omega
    | ⟨1, _⟩ => show win0_0.index t (1 : Fin 2) * 512 + 1 * k.val = k.val; omega
  · show V c main_arg2 (((cfg0.win 1).blk t).view.emb (ix2 k (y 1))) = V c main_arg2 (ix2 k ((((cfg0.win 2).blk t).view.emb y) 1))
    refine congrArg (V c main_arg2) ?_
    funext a; apply Fin.ext
    match a with
    | ⟨0, _⟩ => show win0_1.index t (0 : Fin 2) * 512 + 1 * k.val = k.val; omega
    | ⟨1, _⟩ => show win0_1.index t (1 : Fin 2) * 64 + 1 * (y 1).val = win0_2.index t (1 : Fin 2) * 64 + 1 * (y 1).val; omega

/-- An index of the output array is in point t's block iff each coordinate is in the block's range on its axis. -/
theorem mem_blk (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v30).slice (win0_2.rect t)).set ↔ _
  rw [View.set_slice_whole, Rect.mem_set_unit]
  exact Iff.rfl

/-- Every index of the output array is in the block of the point numbered by its row divided by 4000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := point_of ⟨(i 0).val / 4000, by omega⟩
  have ht' : t.val = (i 0).val / 4000 := ht
  obtain ⟨e0, e1, e2, e3, e4, e5, -⟩ := idx_facts t
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 64 ≤ (i 1).val ∧ (i 1).val < win0_2.index t (1 : Fin 2) * 64 + 64; omega

/-- THE OUTPUT ARRAY after the region: the product of the two operand arrays as the region finds them. -/
theorem array_eq (c : Dev nD) :
    (dat0 (F := Ideal) V c).arrAt 2 cfg0.N = matProd (M := 100000) (K := 512) (N := 64) (V c main_arg0) (V c main_arg2) :=
  (dat0 (F := Ideal) V c).arrAt_eq_of_cover 2 (matProd (M := 100000) (K := 512) (N := 64) (V c main_arg0) (V c main_arg2))
    (fun t _ => flushed_eq V c t) cover

end Cert.KernelIdeal.Region0

end
-- ==== Proof.Region1.lean ====
/-
  What the second matrix-product region leaves in its output array, at the ideal instance, from ANY contents V at its entry.
  The grid has 5 points; point t stages rows [20000·t, 20000·(t+1)) of the left operand (all 64 columns) and the whole
  64×8 right operand, and the body stores their product — the operands' change of float format is the identity on the
  extended reals and the accumulator is zero — as rows [20000·t, 20000·(t+1)) of the output. An entry of a product depends only
  on its own row of the left operand, so block t written back is block t of the product of the two whole arrays; the 5 blocks
  tile the 100000 rows, so the output array ends as that product.
-/
import proofs.«109521_j39427799777294_2_alg».proof.Proof.Gen.KernelIdeal.Frame
import proofs.«109521_j39427799777294_2_alg».proof.Proof.LibMatProd
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.ShloMosaic.MatProd Idealize.SL.Sem
open Idealize.ShloMosaic.Pipeline (Dat Cfg Window)

theorem zeros : (![0, 0] : Fin 2 → Nat) = fun _ => 0 := funext fun a => by fin_cases a <;> rfl

/-- The body's dimension numbers are a plain matrix product's. -/
theorem plain : DotPlain.IsPlain (M := 20000) (K := 64) (N := 8) dot_S20000x64_S64x8_S20000x8_1_0_0_1_n_n := ⟨rfl, rfl, rfl, rfl, rfl, rfl⟩

/-- The stored value at an entry: the matrix-unit product of the two staged blocks into a zero accumulator, the left block's cast to its own shape and both roundings to bf16 the identity at the ideal instance. -/
theorem stored_apply (x0 : Vec Ideal S20000x64 .f32) (x1 : Vec Ideal S64x8 .f32) (y : S20000x8.Idx) :
    k1_pay1 x0 x1 y = matProd (M := 20000) (K := 64) (N := 8) x0 x1 y := by
  unfold k1_pay1
  rw [shapeCast_self]
  exact MatProd.matmul_zero_apply plain none _ _ y

/-- An entry of the stored block is the entry of the whole product, when the staged rows are the whole array's rows. -/
theorem stored_entry (x0 : Vec Ideal S20000x64 .f32) (x1 : Vec Ideal S64x8 .f32) (A : S100000x64.Idx → EReal) (W : S64x8.Idx → EReal)
    (y : S20000x8.Idx) (i : S100000x8.Idx)
    (h0 : ∀ k : Fin 64, x0 (ix2 (y 0) k) = A (ix2 (i 0) k)) (h1 : ∀ k : Fin 64, x1 (ix2 k (y 1)) = W (ix2 k (i 1))) :
    k1_pay1 x0 x1 y = matProd (M := 100000) (K := 64) (N := 8) A W i :=
  (stored_apply x0 x1 y).trans (Finset.sum_congr rfl fun k _ => by
    show x0 (ix2 (y 0) k) * x1 (ix2 k (y 1)) = A (ix2 (i 0) k) * W (ix2 k (i 1))
    rw [h0 k, h1 k])

/-- The printed index maps over the grid: the left operand's and the output's row block is the point's number, every
    other block index is 0, and there are 5 points. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 5 :=
  (by decide +kernel : ∀ t : Fin grid1.N, _)

/-- Every block number below 5 is some point's. -/
theorem point_of : ∀ q : Fin 5, ∃ t : Fin cfg1.N, t.val = q.val :=
  (by decide +kernel : ∀ q : Fin 5, ∃ t : Fin grid1.N, t.val = q.val)

variable (V : (c : Dev nD) → (b : Ref sig .tc) → Buf (Elt Ideal) ((c : Thread nD τ).loc b))

/-- WHAT POINT t WRITES BACK is block t of the product of the two arrays as the region finds them. -/
theorem flushed_eq (c : Dev nD) (t : Fin cfg1.N) :
    (dat1 (F := Ideal) V c).flushed 2 t
      = ((cfg1.win 2).blk t).view.read (Elt Ideal) (matProd (M := 100000) (K := 64) (N := 8) (V c main_v47) (V c main_arg4)) := by
  show (cfg1.win 2).cut (grid1.coords t) ((dat1 V c).after 2 t) = _
  rw [after1_2]
  unfold out1_2
  rw [View.canon_unit_zero zeros]
  simp only [View.ld_unit_zero (S := S20000x64) zeros, View.ld_unit_zero (S := S64x8) zeros]
  obtain ⟨e0, e1, e2, e3, e4, e5, -⟩ := idx_facts t
  funext y
  show k1_pay1 (iblk1 V c 0 t) (iblk1 V c 1 t) y
    = matProd (M := 100000) (K := 64) (N := 8) (V c main_v47) (V c main_arg4) (((cfg1.win 2).blk t).view.emb y)
  refine stored_entry (iblk1 V c 0 t) (iblk1 V c 1 t) (V c main_v47) (V c main_arg4) y (((cfg1.win 2).blk t).view.emb y) (fun k => ?_) (fun k => ?_)
  · show V c main_v47 (((cfg1.win 0).blk t).view.emb (ix2 (y 0) k)) = V c main_v47 (ix2 ((((cfg1.win 2).blk t).view.emb y) 0) k)
    refine congrArg (V c main_v47) ?_
    funext a; apply Fin.ext
    match a with
    | ⟨0, _⟩ => show win1_0.index t (0 : Fin 2) * 20000 + 1 * (y 0).val = win1_2.index t (0 : Fin 2) * 20000 + 1 * (y 0).val; omega
    | ⟨1, _⟩ => show win1_0.index t (1 : Fin 2) * 64 + 1 * k.val = k.val; omega
  · show V c main_arg4 (((cfg1.win 1).blk t).view.emb (ix2 k (y 1))) = V c main_arg4 (ix2 k ((((cfg1.win 2).blk t).view.emb y) 1))
    refine congrArg (V c main_arg4) ?_
    funext a; apply Fin.ext
    match a with
    | ⟨0, _⟩ => show win1_1.index t (0 : Fin 2) * 64 + 1 * k.val = k.val; omega
    | ⟨1, _⟩ => show win1_1.index t (1 : Fin 2) * 8 + 1 * (y 1).val = win1_2.index t (1 : Fin 2) * 8 + 1 * (y 1).val; omega

/-- An index of the output array is in point t's block iff each coordinate is in the block's range on its axis. -/
theorem mem_blk (t : Fin cfg1.N) (i : S100000x8.Idx) :
    i ∈ ((cfg1.win 2).blk t).view.set ↔ ∀ a : Fin 2, win1_2.index t a * S20000x8.size a ≤ (i a).val ∧ (i a).val < win1_2.index t a * S20000x8.size a + S20000x8.size a := by
  show i ∈ ((View.whole main_v48).slice (win1_2.rect t)).set ↔ _
  rw [View.set_slice_whole, Rect.mem_set_unit]
  exact Iff.rfl

/-- Every index of the output array is in the block of the point numbered by its row divided by 20000. -/
theorem cover (i : S100000x8.Idx) : ∃ t : Fin cfg1.N, (cfg1.win 2).flush t = true ∧ i ∈ ((cfg1.win 2).blk t).view.set := by
  have hi0 : (i 0).val < 100000 := (i 0).isLt
  have hi1 : (i 1).val < 8 := (i 1).isLt
  obtain ⟨t, ht⟩ := point_of ⟨(i 0).val / 20000, by omega⟩
  have ht' : t.val = (i 0).val / 20000 := ht
  obtain ⟨e0, e1, e2, e3, e4, e5, -⟩ := idx_facts t
  refine ⟨t, flush1_2 t, ?_⟩
  rw [mem_blk]
  intro a
  match a with
  | ⟨0, _⟩ => show win1_2.index t (0 : Fin 2) * 20000 ≤ (i 0).val ∧ (i 0).val < win1_2.index t (0 : Fin 2) * 20000 + 20000; omega
  | ⟨1, _⟩ => show win1_2.index t (1 : Fin 2) * 8 ≤ (i 1).val ∧ (i 1).val < win1_2.index t (1 : Fin 2) * 8 + 8; omega

/-- THE OUTPUT ARRAY after the region: the product of the two operand arrays as the region finds them. -/
theorem array_eq (c : Dev nD) :
    (dat1 (F := Ideal) V c).arrAt 2 cfg1.N = matProd (M := 100000) (K := 64) (N := 8) (V c main_v47) (V c main_arg4) :=
  (dat1 (F := Ideal) V c).arrAt_eq_of_cover 2 (matProd (M := 100000) (K := 64) (N := 8) (V c main_v47) (V c main_arg4))
    (fun t _ => flushed_eq V c t) cover

end Cert.KernelIdeal.Region1

end
-- ==== Proof.KernelHost.lean ====
/-
  The host operations of the kernel's program, stretch by stretch, as functions of the buffer contents each stretch starts
  from. Before the first region: the extended edge list's sources and targets and the edge weights, from the edge-list
  argument. Between the regions: the first layer's aggregation, bias and max(·, 0), from the first region's output. After
  the second region: the second layer's aggregation and bias, from the second region's output. A stretch leaves every buffer
  it does not write as it found it, so the endpoints and weights computed before the first region, and the arguments, are
  still there for the later stretches. Composed along the program's fold, with each region's output array the product of its
  two operand arrays, the result buffer ends at
      layer8 (layer64 (x · W1) edges b1 · W2) edges b2 .
-/
import proofs.«109521_j39427799777294_2_alg».proof.Proof.Gen.KernelIdeal.Frame
import proofs.«109521_j39427799777294_2_alg».proof.Proof.GraphKernel
import proofs.«109521_j39427799777294_2_alg».proof.Proof.Region0
import proofs.«109521_j39427799777294_2_alg».proof.Proof.Region1

set_option maxRecDepth 16384

noncomputable section

namespace Cert.KernelIdeal.HostChain

open Cert.KernelIdeal Cert.KernelIdeal.Gen Cert.KernelIdeal.Facts₀ Cert.KernelIdeal.Facts
open Idealize.ShloMosaic Idealize.ShloMosaic.TcCoe Idealize.ShloMosaic.StableHlo Idealize.ShloMosaic.MatProd Idealize.SL.Sem

variable {F : FTy → Type} [FloatOps F]

/-! ## The three stretches, from any contents X -/

section Stretches

variable (X : Valuation τ sig (Elt F))

set_option maxHeartbeats 4000000 in
/-- Before the first region: the sources with the self loops appended. -/
theorem before_src : StableHlo.after hostOps0_2 (StableHlo.after hostOps0_1 (StableHlo.after hostOps0 X)) (Proc.devRef .tc main_v3)
    = Graph.src (X (Proc.devRef .tc main_arg1)) := by
  simp only [hostOps0, hostOps0_1, hostOps0_2]
  generalize hcat : (fun (a : IVec S3200000 32) (b : IVec S100000 32) => concatenate S3300000 0 [⟨S3200000, a⟩, ⟨S100000, b⟩] Facts₀.concatenates_S3200000_S100000_S3300000_d0) = cat
  after_results_simp
  subst hcat
  rfl

set_option maxHeartbeats 4000000 in
/-- Before the first region: the targets with the self loops appended. -/
theorem before_dst : StableHlo.after hostOps0_2 (StableHlo.after hostOps0_1 (StableHlo.after hostOps0 X)) (Proc.devRef .tc main_v6)
    = Graph.dst (X (Proc.devRef .tc main_arg1)) := by
  simp only [hostOps0, hostOps0_1, hostOps0_2]
  generalize hcat : (fun (a : IVec S3200000 32) (b : IVec S100000 32) => concatenate S3300000 0 [⟨S3200000, a⟩, ⟨S100000, b⟩] Facts₀.concatenates_S3200000_S100000_S3300000_d0) = cat
  after_results_simp
  subst hcat
  rfl

set_option maxHeartbeats 8000000 in
/-- Before the first region: the extended edges' weights. -/
theorem before_weight : StableHlo.after hostOps0_2 (StableHlo.after hostOps0_1 (StableHlo.after hostOps0 X)) (Proc.devRef .tc main_v29)
    = Graph.weight (F := F) (X (Proc.devRef .tc main_arg1)) := by
  simp only [hostOps0, hostOps0_1, hostOps0_2]
  generalize hcat : (fun (a : IVec S3200000 32) (b : IVec S100000 32) => concatenate S3300000 0 [⟨S3200000, a⟩, ⟨S100000, b⟩] Facts₀.concatenates_S3200000_S100000_S3300000_d0) = cat
  after_results_simp
  subst hcat
  rfl

set_option maxHeartbeats 4000000 in
/-- The stretch before the first region writes no argument. -/
theorem before_args : StableHlo.after hostOps0_2 (StableHlo.after hostOps0_1 (StableHlo.after hostOps0 X)) (Proc.devRef .tc main_arg0) = X (Proc.devRef .tc main_arg0)
    ∧ StableHlo.after hostOps0_2 (StableHlo.after hostOps0_1 (StableHlo.after hostOps0 X)) (Proc.devRef .tc main_arg2) = X (Proc.devRef .tc main_arg2)
    ∧ StableHlo.after hostOps0_2 (StableHlo.after hostOps0_1 (StableHlo.after hostOps0 X)) (Proc.devRef .tc main_arg3) = X (Proc.devRef .tc main_arg3)
    ∧ StableHlo.after hostOps0_2 (StableHlo.after hostOps0_1 (StableHlo.after hostOps0 X)) (Proc.devRef .tc main_arg4) = X (Proc.devRef .tc main_arg4)
    ∧ StableHlo.after hostOps0_2 (StableHlo.after hostOps0_1 (StableHlo.after hostOps0 X)) (Proc.devRef .tc main_arg5) = X (Proc.devRef .tc main_arg5) := by
  refine ⟨?_, ?_, ?_, ?_, ?_⟩ <;> (simp only [hostOps0, hostOps0_1, hostOps0_2]; after_results_simp <;> rfl)

set_option maxHeartbeats 4000000 in
/-- Between the regions: the first layer, from the first region's output and the endpoints, weights and bias found. -/
theorem between_layer : StableHlo.after hostOps1_1 (StableHlo.after hostOps1 X) (Proc.devRef .tc main_v47)
    = Graph.relu64 (Graph.agg64 (X (Proc.devRef .tc main_v30)) (X (Proc.devRef .tc main_v3)) (X (Proc.devRef .tc main_v6)) (X (Proc.devRef .tc main_v29)) (X (Proc.devRef .tc main_arg3))) := by
  simp only [hostOps1, hostOps1_1]
  after_results_simp
  rfl

set_option maxHeartbeats 4000000 in
/-- The stretch between the regions keeps the endpoints, the weights and the later arguments. -/
theorem between_kept : StableHlo.after hostOps1_1 (StableHlo.after hostOps1 X) (Proc.devRef .tc main_v3) = X (Proc.devRef .tc main_v3)
    ∧ StableHlo.after hostOps1_1 (StableHlo.after hostOps1 X) (Proc.devRef .tc main_v6) = X (Proc.devRef .tc main_v6)
    ∧ StableHlo.after hostOps1_1 (StableHlo.after hostOps1 X) (Proc.devRef .tc main_v29) = X (Proc.devRef .tc main_v29)
    ∧ StableHlo.after hostOps1_1 (StableHlo.after hostOps1 X) (Proc.devRef .tc main_arg4) = X (Proc.devRef .tc main_arg4)
    ∧ StableHlo.after hostOps1_1 (StableHlo.after hostOps1 X) (Proc.devRef .tc main_arg5) = X (Proc.devRef .tc main_arg5) := by
  refine ⟨?_, ?_, ?_, ?_, ?_⟩ <;> (simp only [hostOps1, hostOps1_1]; after_results_simp <;> rfl)

set_option maxHeartbeats 4000000 in
/-- After the second region: the second layer, from the second region's output and the endpoints, weights and bias found. -/
theorem after_layer : StableHlo.after hostOps2 X (Proc.devRef .tc main_v64)
    = Graph.agg8 (X (Proc.devRef .tc main_v48)) (X (Proc.devRef .tc main_v3)) (X (Proc.devRef .tc main_v6)) (X (Proc.devRef .tc main_v29)) (X (Proc.devRef .tc main_arg5)) := by
  simp only [hostOps2]
  after_results_simp
  rfl

end Stretches

/-! ## Along the program's fold, at the ideal instance -/

variable (m : (ℓ : Loc nD τ sig) → Buf (Elt Ideal) ℓ) (ρ : Dev nD → PrngReg) (c : Dev nD)

/-- At the first region's entry: the endpoints, the weights and the arguments. -/
theorem entry0_src : W3 m ρ c (Proc.devRef .tc main_v3) = Graph.src (m ((c : Thread nD τ).loc main_arg1)) := before_src (W0 m ρ c)
theorem entry0_dst : W3 m ρ c (Proc.devRef .tc main_v6) = Graph.dst (m ((c : Thread nD τ).loc main_arg1)) := before_dst (W0 m ρ c)
theorem entry0_weight : W3 m ρ c (Proc.devRef .tc main_v29) = Graph.weight (F := Ideal) (m ((c : Thread nD τ).loc main_arg1)) := before_weight (W0 m ρ c)
theorem entry0_arg0 : W3 m ρ c (Proc.devRef .tc main_arg0) = m ((c : Thread nD τ).loc main_arg0) := (before_args (W0 m ρ c)).1
theorem entry0_arg2 : W3 m ρ c (Proc.devRef .tc main_arg2) = m ((c : Thread nD τ).loc main_arg2) := (before_args (W0 m ρ c)).2.1
theorem entry0_arg3 : W3 m ρ c (Proc.devRef .tc main_arg3) = m ((c : Thread nD τ).loc main_arg3) := (before_args (W0 m ρ c)).2.2.1
theorem entry0_arg4 : W3 m ρ c (Proc.devRef .tc main_arg4) = m ((c : Thread nD τ).loc main_arg4) := (before_args (W0 m ρ c)).2.2.2.1
theorem entry0_arg5 : W3 m ρ c (Proc.devRef .tc main_arg5) = m ((c : Thread nD τ).loc main_arg5) := (before_args (W0 m ρ c)).2.2.2.2

/-- At the first region's exit its output array is the product x · W1. -/
theorem exit0_out : W4 m ρ c (Proc.devRef .tc main_v30)
    = matProd (M := 100000) (K := 512) (N := 64) (m ((c : Thread nD τ).loc main_arg0)) (m ((c : Thread nD τ).loc main_arg2)) := by
  refine (W4_arr m ρ c 2).trans ((Region0.array_eq (V3 m ρ) c).trans ?_)
  show matProd (M := 100000) (K := 512) (N := 64) (W3 m ρ c (Proc.devRef .tc main_arg0)) (W3 m ρ c (Proc.devRef .tc main_arg2)) = _
  rw [entry0_arg0, entry0_arg2]

/-- At the second region's entry its left operand is the first layer of x · W1. -/
theorem entry1_left : W6 m ρ c (Proc.devRef .tc main_v47)
    = Graph.layer64 (F := Ideal) (matProd (M := 100000) (K := 512) (N := 64) (m ((c : Thread nD τ).loc main_arg0)) (m ((c : Thread nD τ).loc main_arg2)))
        (m ((c : Thread nD τ).loc main_arg1)) (m ((c : Thread nD τ).loc main_arg3)) := by
  refine (between_layer (W4 m ρ c)).trans ?_
  rw [exit0_out, W4_of_ne m ρ c main_v3 (by decide), W4_of_ne m ρ c main_v6 (by decide), W4_of_ne m ρ c main_v29 (by decide),
    W4_of_ne m ρ c main_arg3 (by decide), entry0_src, entry0_dst, entry0_weight, entry0_arg3]
  rfl

/-- What the second region's entry keeps: the endpoints, the weights, W2 and b2. -/
theorem entry1_src : W6 m ρ c (Proc.devRef .tc main_v3) = Graph.src (m ((c : Thread nD τ).loc main_arg1)) :=
  ((between_kept (W4 m ρ c)).1).trans ((W4_of_ne m ρ c main_v3 (by decide)).trans (entry0_src m ρ c))
theorem entry1_dst : W6 m ρ c (Proc.devRef .tc main_v6) = Graph.dst (m ((c : Thread nD τ).loc main_arg1)) :=
  ((between_kept (W4 m ρ c)).2.1).trans ((W4_of_ne m ρ c main_v6 (by decide)).trans (entry0_dst m ρ c))
theorem entry1_weight : W6 m ρ c (Proc.devRef .tc main_v29) = Graph.weight (F := Ideal) (m ((c : Thread nD τ).loc main_arg1)) :=
  ((between_kept (W4 m ρ c)).2.2.1).trans ((W4_of_ne m ρ c main_v29 (by decide)).trans (entry0_weight m ρ c))
theorem entry1_arg4 : W6 m ρ c (Proc.devRef .tc main_arg4) = m ((c : Thread nD τ).loc main_arg4) :=
  ((between_kept (W4 m ρ c)).2.2.2.1).trans ((W4_of_ne m ρ c main_arg4 (by decide)).trans (entry0_arg4 m ρ c))
theorem entry1_arg5 : W6 m ρ c (Proc.devRef .tc main_arg5) = m ((c : Thread nD τ).loc main_arg5) :=
  ((between_kept (W4 m ρ c)).2.2.2.2).trans ((W4_of_ne m ρ c main_arg5 (by decide)).trans (entry0_arg5 m ρ c))

/-- At the second region's exit its output array is the product (first layer) · W2. -/
theorem exit1_out : W7 m ρ c (Proc.devRef .tc main_v48)
    = matProd (M := 100000) (K := 64) (N := 8)
        (Graph.layer64 (F := Ideal) (matProd (M := 100000) (K := 512) (N := 64) (m ((c : Thread nD τ).loc main_arg0)) (m ((c : Thread nD τ).loc main_arg2)))
          (m ((c : Thread nD τ).loc main_arg1)) (m ((c : Thread nD τ).loc main_arg3)))
        (m ((c : Thread nD τ).loc main_arg4)) := by
  refine (W7_arr m ρ c 2).trans ((Region1.array_eq (V6 m ρ) c).trans ?_)
  show matProd (M := 100000) (K := 64) (N := 8) (W6 m ρ c (Proc.devRef .tc main_v47)) (W6 m ρ c (Proc.devRef .tc main_arg4)) = _
  rw [entry1_left, entry1_arg4]

/-- THE RESULT BUFFER at the program's end. -/
theorem result_eq : W8 m ρ c (Proc.devRef .tc main_v64)
    = Graph.layer8 (F := Ideal)
        (matProd (M := 100000) (K := 64) (N := 8)
          (Graph.layer64 (F := Ideal) (matProd (M := 100000) (K := 512) (N := 64) (m ((c : Thread nD τ).loc main_arg0)) (m ((c : Thread nD τ).loc main_arg2)))
            (m ((c : Thread nD τ).loc main_arg1)) (m ((c : Thread nD τ).loc main_arg3)))
          (m ((c : Thread nD τ).loc main_arg4)))
        (m ((c : Thread nD τ).loc main_arg1)) (m ((c : Thread nD τ).loc main_arg5)) := by
  refine (after_layer (W7 m ρ c)).trans ?_
  rw [exit1_out, W7_of_ne m ρ c main_v3 (by decide), W7_of_ne m ρ c main_v6 (by decide), W7_of_ne m ρ c main_v29 (by decide),
    W7_of_ne m ρ c main_arg5 (by decide), entry1_src, entry1_dst, entry1_weight, entry1_arg5]
  rfl

end Cert.KernelIdeal.HostChain

end
-- ==== Proof.GraphReference.lean ====
/-
  The host side of a two-layer graph convolution, as functions of the arrays it reads.
  An edge list with both endpoints in [0, 100000) is extended by one self loop per node. The degree of a node
  is the number of extended edges that end in it, its inverse root is 1/sqrt(degree) where the degree is positive
  and 0 elsewhere, and an extended edge's weight is the product of the inverse roots of its two endpoints.
  One layer maps node features h (one row per node) to, at node v, the sum over the extended edges e ending in v of
  weight(e) · h[source(e)], plus a bias row. The first layer is followed by max(·, 0).
  These are the printed operations of the reference program, grouped; nothing here opens them.
-/
import proofs.«109521_j39427799777294_2_alg».proof.ReferenceIdeal

noncomputable section

namespace Cert.ReferenceIdeal.Graph

open Idealize.ShloMosaic Cert.ReferenceIdeal Cert.ReferenceIdeal.Facts₀ Cert.ReferenceIdeal.Facts

variable {F : FTy → Type} [FloatOps F] [Facts]

/-- A 3200000-vector followed by a 100000-vector. -/
def appendLoops (a : IVec S3200000 32) (b : IVec S100000 32) : IVec S3300000 32 :=
  concatenate S3300000 0 [⟨S3200000, a⟩, ⟨S100000, b⟩] concatenates_S3200000_S100000_S3300000_d0

/-- The source endpoints (row 0 of the edge list) followed by 0, 1, …, 99999: the self loops' sources. -/
def src (ei : IVec S2x3200000 32) : IVec S3300000 32 :=
  appendLoops (shapeCast _ (extractStridedSlice S1x3200000 ![0, 0] ei slices_S2x3200000_S1x3200000_0_0) shapeCasts_S1x3200000_S3200000) (iotaInDim S100000 32 0)

/-- The target endpoints (row 1 of the edge list) followed by 0, 1, …, 99999: the self loops' targets. -/
def dst (ei : IVec S2x3200000 32) : IVec S3300000 32 :=
  appendLoops (shapeCast _ (extractStridedSlice S1x3200000 ![1, 0] ei slices_S2x3200000_S1x3200000_1_0) shapeCasts_S1x3200000_S3200000) (iotaInDim S100000 32 0)

/-- Node numbers as a column of start indices, a negative number counted from the end (v < 0 ↦ v + 100000). -/
def startCol (v : IVec S3300000 32) : IVec S3300000x1 32 :=
  broadcastInDim S3300000x1 ![0] bcast_S3300000_S3300000x1_0 (select (cmpi .slt v (broadcastInDim S3300000 ![] bcast_S_S3300000 (constantI S_ 32 0#32))) (addi v (broadcastInDim S3300000 ![] bcast_S_S3300000 (constantI S_ 32 100000#32))) v)

/-- The degree from the targets d: at each node the sum of 1 over the extended edges ending there. -/
def degOf (d : IVec S3300000 32) : FVec F S100000 .f32 :=
  Host.scatterAdd scatter_S100000_S3300000x1_S3300000_n_0_0_1 (broadcastInDim S100000 ![] bcast_S_S100000 (constant S_ .f32 0x00000000#32)) (broadcastInDim S3300000x1 ![0] bcast_S3300000_S3300000x1_0 d) (broadcastInDim S3300000 ![] bcast_S_S3300000 (constant S_ .f32 0x3F800000#32))

/-- 1/sqrt(degree) where the degree is positive, 0 elsewhere. -/
def invRootOf (d : IVec S3300000 32) : FVec F S100000 .f32 :=
  select (cmpf .ogt (degOf (F := F) d) (broadcastInDim S100000 ![] bcast_S_S100000 (constant S_ .f32 0x00000000#32))) (Host.rsqrt (degOf (F := F) d)) (broadcastInDim S100000 ![] bcast_S_S100000 (id (constant S_ .f32 0x00000000#32)))

/-- An extended edge's weight from the sources s and targets d: the inverse root at its source times the one at its target. -/
def weightOf (s d : IVec S3300000 32) : FVec F S3300000 .f32 :=
  mulf (Host.gather gather_S100000_S3300000x1_S3300000_n_0_n_n_0_1_1 (invRootOf (F := F) d) (startCol s)) (Host.gather gather_S100000_S3300000x1_S3300000_n_0_n_n_0_1_1 (invRootOf (F := F) d) (startCol d))

/-- The weights of an edge list's extended edges. -/
def weight (ei : IVec S2x3200000 32) : FVec F S3300000 .f32 := weightOf (F := F) (src ei) (dst ei)

/-- Aggregation on 64 features from sources s, targets d and weights w: at node v the sum over edges e with d(e) = v of
    w(e) · h[s(e)], plus the bias row b. -/
def agg64 (h : FVec F S100000x64 .f32) (s d : IVec S3300000 32) (w : FVec F S3300000 .f32) (b : FVec F S64 .f32) : FVec F S100000x64 .f32 :=
  addf (Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 d) (mulf (Host.gather gather_S100000x64_S3300000x1_S3300000x64_1_0_n_n_0_1_164 h (startCol s)) (broadcastInDim S3300000x64 ![0, 1] bcast_S3300000x1_S3300000x64_0_1 (broadcastInDim S3300000x1 ![0] bcast_S3300000_S3300000x1_0 w)))) (broadcastInDim S100000x64 ![0, 1] bcast_S1x64_S100000x64_0_1 (broadcastInDim S1x64 ![1] bcast_S64_S1x64_1 b))

/-- max(·, 0) on 64 features. -/
def relu64 (a : FVec F S100000x64 .f32) : FVec F S100000x64 .f32 :=
  maximumf a (broadcastInDim S100000x64 ![] bcast_S_S100000x64 (constant S_ .f32 0x00000000#32))

/-- Aggregation on 8 features. -/
def agg8 (h : FVec F S100000x8 .f32) (s d : IVec S3300000 32) (w : FVec F S3300000 .f32) (b : FVec F S8 .f32) : FVec F S100000x8 .f32 :=
  addf (Host.scatterAdd scatter_S100000x8_S3300000x1_S3300000x8_1_0_0_1 (broadcastInDim S100000x8 ![] bcast_S_S100000x8 (constant S_ .f32 0x00000000#32)) (broadcastInDim S3300000x1 ![0] bcast_S3300000_S3300000x1_0 d) (mulf (Host.gather gather_S100000x8_S3300000x1_S3300000x8_1_0_n_n_0_1_18 h (startCol s)) (broadcastInDim S3300000x8 ![0, 1] bcast_S3300000x1_S3300000x8_0_1 (broadcastInDim S3300000x1 ![0] bcast_S3300000_S3300000x1_0 w)))) (broadcastInDim S100000x8 ![0, 1] bcast_S1x8_S100000x8_0_1 (broadcastInDim S1x8 ![1] bcast_S8_S1x8_1 b))

/-- The first layer on an edge list: aggregation, then max(·, 0). -/
def layer64 (h : FVec F S100000x64 .f32) (ei : IVec S2x3200000 32) (b : FVec F S64 .f32) : FVec F S100000x64 .f32 :=
  relu64 (agg64 h (src ei) (dst ei) (weight (F := F) ei) b)

/-- The second layer on an edge list. -/
def layer8 (h : FVec F S100000x8 .f32) (ei : IVec S2x3200000 32) (b : FVec F S8 .f32) : FVec F S100000x8 .f32 :=
  agg8 h (src ei) (dst ei) (weight (F := F) ei) b

end Cert.ReferenceIdeal.Graph

end
-- ==== Proof.RefValue.lean ====
/-
  What the reference program computes, at the ideal instance: its run's composed term is the second layer of the host dot
  product of (the first layer of the host dot product x · W1) with W2 — the edge weights it computes once per layer are one
  function of the edge list — and a host dot product with plain matrix-product dimension numbers is the product as a sum over
  the shared axis. So the reference's result is
      layer8 (layer64 (x · W1) edges b1 · W2) edges b2 .
-/
import proofs.«109521_j39427799777294_2_alg».proof.Proof.RefRunPatched
import proofs.«109521_j39427799777294_2_alg».proof.Proof.GraphReference
import proofs.«109521_j39427799777294_2_alg».proof.Proof.LibMatProd

set_option maxRecDepth 16384

noncomputable section

namespace Cert.ReferenceIdeal.RefValue

open Cert.ReferenceIdeal Cert.ReferenceIdeal.Gen Cert.ReferenceIdeal.Facts₀ Cert.ReferenceIdeal.Facts
open Idealize.ShloMosaic Idealize.ShloMosaic.TcCoe Idealize.ShloMosaic.MatProd Idealize.SL.Sem

/-- Both host dot products have a plain matrix product's dimension numbers. -/
theorem plain1 : DotPlain.IsPlain (M := 100000) (K := 512) (N := 64) dot_S100000x512_S512x64_S100000x64_1_0_0_1_n_n := ⟨rfl, rfl, rfl, rfl, rfl, rfl⟩
theorem plain2 : DotPlain.IsPlain (M := 100000) (K := 64) (N := 8) dot_S100000x64_S64x8_S100000x8_1_0_0_1_n_n := ⟨rfl, rfl, rfl, rfl, rfl, rfl⟩

variable {F : FTy → Type} [FloatOps F]

set_option maxHeartbeats 4000000 in
/-- The run's composed term, regrouped: the two layers over the two host dot products, at any float instance. -/
theorem res_layers (m : (ℓ : Loc nD τ sig) → Buf (Elt F) ℓ) (c : Dev nD) :
    ValueP.res_main_v87 (F := F) m c
      = Graph.layer8 (F := F)
          (Host.dotGeneral dot_S100000x64_S64x8_S100000x8_1_0_0_1_n_n none
            (Graph.layer64 (F := F) (Host.dotGeneral dot_S100000x512_S512x64_S100000x64_1_0_0_1_n_n none (m ((c.tc : Thread nD τ).loc main_arg0)) (m ((c.tc : Thread nD τ).loc main_arg2)))
              (m ((c.tc : Thread nD τ).loc main_arg1)) (m ((c.tc : Thread nD τ).loc main_arg3)))
            (m ((c.tc : Thread nD τ).loc main_arg4)))
          (m ((c.tc : Thread nD τ).loc main_arg1)) (m ((c.tc : Thread nD τ).loc main_arg5)) := by
  unfold ValueP.res_main_v87
  rfl

/-- At the ideal instance the two host dot products are matrix products. -/
theorem res_eq (m : (ℓ : Loc nD τ sig) → Buf (Elt Ideal) ℓ) (c : Dev nD) :
    ValueP.res_main_v87 (F := Ideal) m c
      = Graph.layer8 (F := Ideal)
          (matProd (M := 100000) (K := 64) (N := 8)
            (Graph.layer64 (F := Ideal) (matProd (M := 100000) (K := 512) (N := 64) (m ((c.tc : Thread nD τ).loc main_arg0)) (m ((c.tc : Thread nD τ).loc main_arg2)))
              (m ((c.tc : Thread nD τ).loc main_arg1)) (m ((c.tc : Thread nD τ).loc main_arg3)))
            (m ((c.tc : Thread nD τ).loc main_arg4)))
          (m ((c.tc : Thread nD τ).loc main_arg1)) (m ((c.tc : Thread nD τ).loc main_arg5)) := by
  rw [res_layers, MatProd.dotGeneral_eq plain1 none (m ((c.tc : Thread nD τ).loc main_arg0)) (m ((c.tc : Thread nD τ).loc main_arg2))]
  exact congrArg (fun h => Graph.layer8 (F := Ideal) h (m ((c.tc : Thread nD τ).loc main_arg1)) (m ((c.tc : Thread nD τ).loc main_arg5)))
    (MatProd.dotGeneral_eq plain2 none _ (m ((c.tc : Thread nD τ).loc main_arg4)))

end Cert.ReferenceIdeal.RefValue

end
-- ==== Proof.GraphSame.lean ====
/-
  The two programs spell the graph convolution's host side with the same operations over their own copies of the same
  shapes and dimension records, so the layer functions stated over one program's vocabulary are those stated over the
  other's: equal by unfolding the records, whose fields are the same literals.
-/
import proofs.«109521_j39427799777294_2_alg».proof.Proof.GraphKernel
import proofs.«109521_j39427799777294_2_alg».proof.Proof.GraphReference

noncomputable section

namespace Cert.GraphSame

open Idealize.ShloMosaic

variable {F : FTy → Type} [FloatOps F] [Cert.KernelIdeal.Facts] [Cert.ReferenceIdeal.Facts]

/-- The first layer is one function in both vocabularies. -/
theorem layer64_eq (h : FVec F Cert.ReferenceIdeal.S100000x64 .f32) (ei : IVec Cert.ReferenceIdeal.S2x3200000 32) (b : FVec F Cert.ReferenceIdeal.S64 .f32) :
    Cert.ReferenceIdeal.Graph.layer64 (F := F) h ei b = Cert.KernelIdeal.Graph.layer64 (F := F) h ei b := rfl

/-- The second layer is one function in both vocabularies. -/
theorem layer8_eq (h : FVec F Cert.ReferenceIdeal.S100000x8 .f32) (ei : IVec Cert.ReferenceIdeal.S2x3200000 32) (b : FVec F Cert.ReferenceIdeal.S8 .f32) :
    Cert.ReferenceIdeal.Graph.layer8 (F := F) h ei b = Cert.KernelIdeal.Graph.layer8 (F := F) h ei b := rfl

end Cert.GraphSame

end
-- ==== Proof.lean ====
/-
  A two-layer graph convolution: out = layer8 (layer64 (x · W1) edges b1 · W2) edges b2, where a layer sums, at each node,
  the symmetric-normalised features of its in-neighbours (one self loop added per node) and adds a bias, and the first layer
  ends in max(·, 0). The kernel program computes the two dense products x · W1 and h · W2 in two row-blocked matrix-unit
  regions (operands rounded to bf16, a zero f32 accumulator) and everything else on the host; the reference computes the
  products by host dot products and recomputes the edge weights in each layer.
  At the ideal instance a change of float format is the identity, a matrix-unit product into a zero accumulator and a host dot
  product are both the sum over the shared axis of l(i, k) · r(k, q), a row block of a product depends only on its own rows of
  the left operand, and the edge weights are one function of the edge list. So both programs end with the result at the same
  function of the arguments, for every extended-real input: the precondition is never opened. The idealization rewrote no
  operation of the kernel, so there is nothing to preserve beyond the text itself.
-/
import proofs.«109521_j39427799777294_2_alg».proof.Defs
import proofs.«109521_j39427799777294_2_alg».proof.Proof.Gen.Kernel
import proofs.«109521_j39427799777294_2_alg».proof.Proof.Gen.Kernel.Skeleton
import proofs.«109521_j39427799777294_2_alg».proof.Proof.Gen.Kernel.Launch
import proofs.«109521_j39427799777294_2_alg».proof.Proof.Gen.Kernel.Points
import proofs.«109521_j39427799777294_2_alg».proof.Proof.Gen.Kernel.Frame
import proofs.«109521_j39427799777294_2_alg».proof.Proof.Gen.KernelIdeal
import proofs.«109521_j39427799777294_2_alg».proof.Proof.Gen.KernelIdeal.Skeleton
import proofs.«109521_j39427799777294_2_alg».proof.Proof.Gen.KernelIdeal.Launch
import proofs.«109521_j39427799777294_2_alg».proof.Proof.Gen.KernelIdeal.Points
import proofs.«109521_j39427799777294_2_alg».proof.Proof.Gen.KernelIdeal.Frame
import proofs.«109521_j39427799777294_2_alg».proof.Proof.Gen.ReferenceIdeal
import proofs.«109521_j39427799777294_2_alg».proof.Proof.Gen.Pre_finite_inputs
import proofs.«109521_j39427799777294_2_alg».proof.Proof.KernelRun
import proofs.«109521_j39427799777294_2_alg».proof.Proof.KernelHost
import proofs.«109521_j39427799777294_2_alg».proof.Proof.RefRunPatched
import proofs.«109521_j39427799777294_2_alg».proof.Proof.RefValue
import proofs.«109521_j39427799777294_2_alg».proof.Proof.GraphSame
import Idealize.ShloMosaic.Adequacy
import Idealize.ShloMosaic.Init

noncomputable section

namespace Cert.Proof

open Idealize.ShloMosaic Idealize.ShloMosaic.TcCoe Idealize.ShloMosaic.MatProd Idealize.SL.Sem

/-- The word-level kernel program runs and keeps its arguments: the generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs end with the result at layer8 (layer64 (x · W1) edges b1 · W2) edges b2 of arguments that agree. -/
theorem algebraic : Cert.algebraic_KernelIdeal_ReferenceIdeal := by
  intro m ρ m' ρ' _ hagree
  refine ⟨fun c => Cert.KernelIdeal.Graph.layer8 (F := Ideal)
      (matProd (M := 100000) (K := 64) (N := 8)
        (Cert.KernelIdeal.Graph.layer64 (F := Ideal) (matProd (M := 100000) (K := 512) (N := 64) (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
          (m ((c.tc : Thread Cert.KernelIdeal.nD Cert.KernelIdeal.τ).loc Cert.KernelIdeal.main_arg1)) (m ((c.tc : Thread Cert.KernelIdeal.nD Cert.KernelIdeal.τ).loc Cert.KernelIdeal.main_arg3)))
        (m ((c.tc : Thread Cert.KernelIdeal.nD Cert.KernelIdeal.τ).loc Cert.KernelIdeal.main_arg4)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.HostChain.result_eq m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.res_eq, (hagree c).1, (hagree c).2.1, (hagree c).2.2.1, (hagree c).2.2.2.1,
      (hagree c).2.2.2.2.1, (hagree c).2.2.2.2.2]
    exact (Cert.GraphSame.layer8_eq _ _ _).trans
      (congrArg (fun h => Cert.KernelIdeal.Graph.layer8 (F := Ideal)
          (matProd (M := 100000) (K := 64) (N := 8) h (m ((c.tc : Thread Cert.KernelIdeal.nD Cert.KernelIdeal.τ).loc Cert.KernelIdeal.main_arg4))) (m ((c.tc : Thread Cert.KernelIdeal.nD Cert.KernelIdeal.τ).loc Cert.KernelIdeal.main_arg1)) (m ((c.tc : Thread Cert.KernelIdeal.nD Cert.KernelIdeal.τ).loc Cert.KernelIdeal.main_arg5)))
        (Cert.GraphSame.layer64_eq _ _ _))

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
